-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S512x512 : Shape := ⟨2, ![512, 512]⟩
abbrev S512 : Shape := ⟨1, ![512]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S200000x512 .f32) (main_arg1 : FVec F S512x512 .f32) (main_arg2 : FVec F S512 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S200000x512 : Shape := ⟨2, ![200000, 512]⟩
abbrev S512x512 : Shape := ⟨2, ![512, 512]⟩
abbrev S512 : Shape := ⟨1, ![512]⟩
abbrev S1x512 : Shape := ⟨2, ![1, 512]⟩
abbrev S2000x512 : Shape := ⟨2, ![2000, 512]⟩
abbrev S2000 : Shape := ⟨1, ![2000]⟩
abbrev S2000x1 : Shape := ⟨2, ![2000, 1]⟩

abbrev nBuf : Space → Nat
  | .hbm => 6
  | .vmem => 6
  | .smem => 0
  | _ => 0

abbrev bufTy : (tb : Table) → Fin (tcTables nBuf tb) → BufTy
  | .hbm, ⟨0, _⟩ => ⟨S200000x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S512x512, .bf16⟩
  | .hbm, ⟨5, _⟩ => ⟨S200000x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  dot_S2000x512_S512x512_S2000x512_1_1_0_0_n_n_wf : DotDims.WF S2000x512 S512x512 S2000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .f32 = 32 ∨ (Rect.block (s := S200000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S200000x512.size a
  hwx0_3 : ∀ i : grid0.Coords, EltTy.bits .f32 = 32 ∨ (Rect.block (s := S200000x512) S2000x512.size (cc0_transform_3 i) (hinb0_3 i)).WholeWords (EltTy.packing .f32)

variable [Facts₀]

def dot_S2000x512_S512x512_S2000x512_1_1_0_0_n_n : DotDims S2000x512 S512x512 S2000x512 where
  lhsContracting := [1]
  rhsContracting := [1]
  lhsNonContracting := [0]
  rhsNonContracting := [0]
  lhsBatch := []
  rhsBatch := []
  wf := dot_S2000x512_S512x512_S2000x512_1_1_0_0_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x512 : Shape := ⟨2, ![200000, 512]⟩
abbrev S512x512 : Shape := ⟨2, ![512, 512]⟩
abbrev S512 : Shape := ⟨1, ![512]⟩
abbrev S_ : Shape := ⟨0, ![]⟩
abbrev S200000 : Shape := ⟨1, ![200000]⟩
abbrev S200000x1 : Shape := ⟨2, ![200000, 1]⟩
abbrev S1x512 : Shape := ⟨2, ![1, 512]⟩

abbrev nBuf : Space → Nat
  | .hbm => 33
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S200000, .f32⟩
  | .hbm, ⟨5, _⟩ => ⟨S200000x1, .f32⟩
  | .hbm, ⟨6, _⟩ => ⟨S_, .f32⟩
  | .hbm, ⟨7, _⟩ => ⟨S200000x1, .f32⟩
  | .hbm, ⟨8, _⟩ => ⟨S200000x1, .f32⟩
  | .hbm, ⟨9, _⟩ => ⟨S200000x512, .f32⟩
  | .hbm, ⟨10, _⟩ => ⟨S200000x512, .f32⟩
  | .hbm, ⟨11, _⟩ => ⟨S200000x512, .f32⟩
  | .hbm, ⟨12, _⟩ => ⟨S_, .f32⟩
  | .hbm, ⟨13, _⟩ => ⟨S200000, .f32⟩
  | .hbm, ⟨14, _⟩ => ⟨S200000x1, .f32⟩
  | .hbm, ⟨15, _⟩ => ⟨S_, .f32⟩
  | .hbm, ⟨16, _⟩ => ⟨S200000x1, .f32⟩
  | .hbm, ⟨17, _⟩ => ⟨S200000x1, .f32⟩
  | .hbm, ⟨18, _⟩ => ⟨S200000x512, .f32⟩
  | .hbm, ⟨19, _⟩ => ⟨S200000x512, .f32⟩
  | .hbm, ⟨20, _⟩ => ⟨S_, .f32⟩
  | .hbm, ⟨21, _⟩ => ⟨S200000x1, .f32⟩
  | .hbm, ⟨22, _⟩ => ⟨S200000x1, .f32⟩
  | .hbm, ⟨23, _⟩ => ⟨S200000x1, .f32⟩
  | .hbm, ⟨24, _⟩ => ⟨S200000x512, .f32⟩
  | .hbm, ⟨25, _⟩ => ⟨S200000x512, .f32⟩
  | .hbm, ⟨26, _⟩ => ⟨S200000x512, .f32⟩
  | .hbm, ⟨27, _⟩ => ⟨S1x512, .f32⟩
  | .hbm, ⟨28, _⟩ => ⟨S200000x512, .f32⟩
  | .hbm, ⟨29, _⟩ => ⟨S200000x512, .f32⟩
  | .hbm, ⟨30, _⟩ => ⟨S_, .f32⟩
  | .hbm, ⟨31, _⟩ => ⟨S200000x512, .f32⟩
  | .hbm, ⟨32, _⟩ => ⟨S200000x512, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S200000x512_S200000_d1 : S200000x512.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x512_0_1 : S200000x1.BroadcastsInDim S200000x512 (![0, 1] : Fin 2 → Fin S200000x512.rank)
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  dot_S200000x512_S512x512_S200000x512_1_1_0_0_n_n_wf : DotDims.WF S200000x512 S512x512 S200000x512 [1] [1] [0] [0] [] []

variable [Facts₀]

def dot_S200000x512_S512x512_S200000x512_1_1_0_0_n_n : DotDims S200000x512 S512x512 S200000x512 where
  lhsContracting := [1]
  rhsContracting := [1]
  lhsNonContracting := [0]
  rhsNonContracting := [0]
  lhsBatch := []
  rhsBatch := []
  wf := dot_S200000x512_S512x512_S200000x512_1_1_0_0_n_n_wf

class Facts : Prop extends Facts₀ where

variable [Facts]
-- ==== Proof.RowNorm.lean ====
/-
  Normalizing one row, two ways, on the extended reals.

  A row `v` of `n` entries is normalized to zero mean and unit variance (up to `ε`): with the mean `μ = (∑ v) / n`,

  * the CENTRED form subtracts the mean first: the variance is `(∑ (v - μ)²) / n`, and entry `k` becomes
    `(v k - μ) · rsqrt (variance + ε)`;
  * the MOMENTS form never forms `v - μ`: the variance is `(∑ v²) / n - μ²`, and entry `k` becomes
    `v k · s - μ · s` with `s = rsqrt (variance + ε)`.

  When every entry is a real number (no infinity), `n` is the number of entries and `ε > 0`, the two agree:
  `∑ (v - μ)² = ∑ v² - 2 μ ∑ v + n μ² = ∑ v² - n μ²`, so the two variances are one real number `σ² ≥ 0`; then
  `σ² + ε > 0`, its reciprocal square root `s` is a real number, and `v k · s - μ · s = (v k - μ) · s` is
  distributivity in `ℝ`. (With an infinite `s` or an infinite entry the last step fails: `∞ - ∞` is not `0 · ∞`.)
-/
import Idealize.ShloMosaic.PureOps.Ideal
import Mathlib.Tactic.Ring
import Mathlib.Tactic.FieldSimp
import Mathlib.Tactic.Positivity
import Mathlib.Tactic.Linarith

noncomputable section

open Idealize.ShloMosaic
open scoped BigOperators

namespace Cert.RowNorm

variable {ι : Type} [Fintype ι]

/-- The row's mean: the sum of its entries over `c`. -/
def mean (c : EReal) (v : ι → EReal) : EReal := Ideal.div (∑ j, v j) c

/-- Entry `k` of the row normalized in the CENTRED form. -/
def centred (c ε : EReal) (v : ι → EReal) (k : ι) : EReal :=
  (v k - mean c v) * Ideal.rsqrt (Ideal.div (∑ j, (v j - mean c v) * (v j - mean c v)) c + ε)

/-- Entry `k` of the row normalized in the MOMENTS form. -/
def moments (c ε : EReal) (v : ι → EReal) (k : ι) : EReal :=
  v k * Ideal.rsqrt (Ideal.div (∑ j, v j * v j) c - mean c v * mean c v + ε)
    - mean c v * Ideal.rsqrt (Ideal.div (∑ j, v j * v j) c - mean c v * mean c v + ε)

/-- A finite sum of real numbers, taken on the extended reals, is the real sum. -/
theorem coe_sum (s : Finset ι) (r : ι → ℝ) : (∑ j ∈ s, ((r j : ℝ) : EReal)) = ((∑ j ∈ s, r j : ℝ) : EReal) := by
  classical
  induction s using Finset.induction_on with
  | empty => simp
  | insert a s ha ih => rw [Finset.sum_insert ha, Finset.sum_insert ha, ih, EReal.coe_add]

/-- The quotient of two real numbers, the divisor not zero, is the real quotient. -/
theorem div_coe_coe {a c : ℝ} (hc : c ≠ 0) : Ideal.div (a : EReal) (c : EReal) = ((a / c : ℝ) : EReal) := by
  rw [Ideal.div_coe hc, ← EReal.coe_mul, mul_one_div]

/-- The reciprocal square root of a positive real number is a real number. -/
theorem rsqrt_coe_pos {b : ℝ} (hb : 0 < b) : Ideal.rsqrt (b : EReal) = (((Real.sqrt b)⁻¹ : ℝ) : EReal) := by
  rw [Ideal.rsqrt_coe, if_neg (not_lt.mpr hb.le), if_neg hb.ne']

/-- The two variances of a real row are one number: `(∑ (r - μ)²) / n = (∑ r²) / n - μ²` when `n` counts the entries. -/
theorem variance_eq {c : ℝ} (hcard : (Fintype.card ι : ℝ) = c) (hc : c ≠ 0) (r : ι → ℝ) :
    (∑ j, (r j - (∑ l, r l) / c) * (r j - (∑ l, r l) / c)) / c
      = (∑ j, r j * r j) / c - (∑ l, r l) / c * ((∑ l, r l) / c) := by
  have hexp : ∀ j, (r j - (∑ l, r l) / c) * (r j - (∑ l, r l) / c)
      = r j * r j - 2 * ((∑ l, r l) / c) * r j + (∑ l, r l) / c * ((∑ l, r l) / c) := fun j => by ring
  rw [Finset.sum_congr rfl fun j _ => hexp j, Finset.sum_add_distrib, Finset.sum_sub_distrib, ← Finset.mul_sum,
    Finset.sum_const, Finset.card_univ, nsmul_eq_mul, hcard]
  field_simp
  ring

/-- THE LAW: on a row of real numbers, of as many entries as `c` says, with `ε > 0`, the moments form IS the centred form. -/
theorem moments_eq_centred {c e : ℝ} (hcard : (Fintype.card ι : ℝ) = c) (hc : 0 < c) (he : 0 < e) (r : ι → ℝ) (k : ι) :
    moments (c : EReal) (e : EReal) (fun j => ((r j : ℝ) : EReal)) k
      = centred (c : EReal) (e : EReal) (fun j => ((r j : ℝ) : EReal)) k := by
  have hc0 : c ≠ 0 := hc.ne'
  have hmean : mean (c : EReal) (fun j => ((r j : ℝ) : EReal)) = (((∑ l, r l) / c : ℝ) : EReal) := by
    unfold mean; rw [coe_sum, div_coe_coe hc0]
  have hvar := variance_eq hcard hc0 r
  have hnonneg : 0 ≤ (∑ j, (r j - (∑ l, r l) / c) * (r j - (∑ l, r l) / c)) / c :=
    div_nonneg (Finset.sum_nonneg fun j _ => mul_self_nonneg _) hc.le
  have hpos : 0 < (∑ j, (r j - (∑ l, r l) / c) * (r j - (∑ l, r l) / c)) / c + e := by linarith
  unfold moments centred
  rw [hmean]
  simp only [← EReal.coe_mul, ← EReal.coe_sub, coe_sum, div_coe_coe hc0, ← EReal.coe_add]
  rw [← hvar, rsqrt_coe_pos hpos]
  simp only [← EReal.coe_mul, ← EReal.coe_sub]
  exact congrArg _ (by ring)

end Cert.RowNorm

end
-- ==== Proof.Consts.lean ====
/-
  The three float constants both programs spell, as the extended reals their binary patterns denote: the row
  length `512.0` is the real number `512`; the variance offset (the pattern nearest `1e-5`) is SOME positive real
  number — its exact value never matters, only its sign; `0.0` is `0`.
-/
import Idealize.ShloMosaic.PureOps.Ideal
import Mathlib.Tactic.NormNum
import Mathlib.Tactic.Positivity

noncomputable section

namespace Cert.Consts

open Idealize.ShloMosaic

/-- `512.0` denotes the real number `512`. -/
theorem ofBits_512 : Ideal.ofBits .f32 0x44000000#32 = ((512 : ℝ) : EReal) := by
  simp [Ideal.ofBits, Ideal.ieee, -EReal.coe_mul]; norm_num

/-- The variance offset denotes a positive real number. -/
theorem ofBits_eps : ∃ e : ℝ, 0 < e ∧ Ideal.ofBits .f32 0x3727C5AC#32 = (e : EReal) := by
  refine ⟨(2 ^ 23 + 2606508 : ℕ) * (2 : ℝ) ^ ((110 : ℤ) - 127 - 23), by positivity, ?_⟩
  simp [Ideal.ofBits, Ideal.ieee, -EReal.coe_mul]

/-- `0.0` denotes `0`. -/
theorem ofBits_zero : Ideal.ofBits .f32 0x00000000#32 = 0 := by
  simp [Ideal.ofBits, Ideal.ieee]

end Cert.Consts

end
-- ==== Proof.Spec.lean ====
/-
  What both programs compute, as one function of the three argument arrays.

  `x` is [200000, 512], `W` is [512, 512], `b` is [512]. Every row of `x` is normalized (by a rule `N` on rows of 512
  entries), multiplied by `W` transposed, shifted by `b` and clamped below at zero:

      out[r, o] = max (∑ k, N (x[r, ·]) k · W[o, k] + b[o]) 0.

  The kernel normalizes a row by its first two moments (`normK`), the reference by centring it first (`normR`); on an
  `x` whose entries are all real numbers the two rules agree row by row (Proof/RowNorm.lean), hence so do the outputs.
-/
import Idealize.ShloMosaic.PureOps.Ideal
import Idealize.ShloMosaic.Lib.ValueIdx
import proofs.«146175_j5214090297536_2_alg».proof.Proof.RowNorm
import proofs.«146175_j5214090297536_2_alg».proof.Proof.Consts

noncomputable section

open Idealize.ShloMosaic Idealize.ShloMosaic.ValueIdx
open scoped BigOperators

namespace Cert.Spec

abbrev SX : Shape := ⟨2, ![200000, 512]⟩
abbrev SW : Shape := ⟨2, ![512, 512]⟩
abbrev SB : Shape := ⟨1, ![512]⟩

/-- The row length `512.0` and the variance offset, as the programs spell them. -/
abbrev cN : EReal := Ideal.ofBits .f32 0x44000000#32
abbrev cE : EReal := Ideal.ofBits .f32 0x3727C5AC#32

/-- Row `r` of `x`. -/
def row (x : SX.Idx → EReal) (r : Fin 200000) : Fin 512 → EReal := fun k => x (ix2 r k)

/-- The kernel's rule on a row: moments form. The reference's: centred form. -/
def normK : (Fin 512 → EReal) → Fin 512 → EReal := RowNorm.moments cN cE
def normR : (Fin 512 → EReal) → Fin 512 → EReal := RowNorm.centred cN cE

/-- The output array under the row rule `N`. -/
def G (N : (Fin 512 → EReal) → Fin 512 → EReal) (x : SX.Idx → EReal) (W : SW.Idx → EReal) (b : SB.Idx → EReal) :
    SX.Idx → EReal :=
  fun i => max ((∑ k : Fin 512, N (row x (i 0)) k * W (ix2 (i 1) k)) + b (ix1 (i 1))) 0

/-- On a row of real numbers the two rules agree. -/
theorem normK_eq_normR (v : Fin 512 → EReal) (hv : ∀ k, ∃ r : ℝ, v k = (r : EReal)) : normK v = normR v := by
  choose r hr using hv
  obtain ⟨e, he, hE⟩ := Consts.ofBits_eps
  have hvr : v = fun k => ((r k : ℝ) : EReal) := funext hr
  funext k
  unfold normK normR cN cE
  rw [hvr, Consts.ofBits_512, hE]
  exact RowNorm.moments_eq_centred (by norm_num) (by norm_num) he r k

/-- So on an `x` of real numbers the two outputs are one array. -/
theorem G_normK_eq_G_normR (x : SX.Idx → EReal) (W : SW.Idx → EReal) (b : SB.Idx → EReal)
    (hx : ∀ i, ∃ r : ℝ, x i = (r : EReal)) : G normK x W b = G normR x W b := by
  funext i
  unfold G
  rw [normK_eq_normR (row x (i 0)) fun k => hx _]

end Cert.Spec

end
-- ==== Proof.Payload.lean ====
/-
  What the kernel body stores, read at one entry of its [2000, 512] block.

  The body loads a block `x0` of 2000 rows of `x`, the whole of `W` (`w`) and the bias as one row (`b2`). Per row it takes the
  sum and the sum of squares along the 512 columns, keeps them as [2000, 1] columns, divides by `512`, forms the variance as
  the second moment less the squared mean, adds the offset and takes the reciprocal square root `s`; the normalized block is
  `x0 · s - (mean · s)`, both terms broadcast back along the columns: the MOMENTS form of the row rule, entry by entry.
  The matrix product contracts the column axis of the normalized block with the column axis of `w` into a zero accumulator,
  so entry `(p, q)` is `∑ k, xn[p, k] · w[q, k]`; the bias row is broadcast down the rows; the store is the maximum with `0`.
  A change of float format is the identity on the extended reals, so the narrowing before the product disappears.
-/
import proofs.«146175_j5214090297536_2_alg».proof.Proof.Gen.KernelIdeal.Skeleton
import proofs.«146175_j5214090297536_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelValue

open Cert.KernelIdeal Cert.KernelIdeal.Facts₀ Cert.Spec
open Cert.KernelIdeal.Gen (k0_pay1)

/-! ## The layout operations of the body, read at an index -/

/-- A [2000] vector kept as a [2000, 1] column reads, at `(p, ·)`, its entry `p`. -/
theorem column_apply (v : S2000.Idx → EReal) (p : Fin 2000) (u : Fin 1) :
    shapeCast S2000x1 v shapeCasts_S2000_S2000x1 (ix2 p u) = v (ix1 p) :=
  shapeCast_apply v _ _ _ (by
    have hu : u.val = 0 := by omega
    rw [Shape.rowMajor_val_two, Shape.rowMajor_val_one]
    show p.val = p.val * 1 + u.val
    rw [hu, Nat.mul_one, Nat.add_zero])

/-- A [2000, 1] column broadcast along the 512 columns reads, at `(p, q)`, the column's entry `p`. -/
theorem spread_apply (v : S2000x1.Idx → EReal) (p : Fin 2000) (q : Fin 512) :
    broadcastTo S2000x512 v broadcasts_S2000x1_S2000x512 (ix2 p q) = v (ix2 p (0 : Fin 1)) := by
  refine broadcastTo_apply v _ (ix2 p q) (ix2 p (0 : Fin 1)) fun ax => ?_
  match ax with
  | ⟨0, _⟩ =>
    show p.val = if (2000 : Nat) = 1 then 0 else p.val
    rw [if_neg (by decide)]
  | ⟨1, _⟩ =>
    show 0 = if (1 : Nat) = 1 then 0 else q.val
    rw [if_pos rfl]

/-- The sum of a [2000, 512] block along its columns, kept as a column, reads at `(p, ·)` the sum of row `p`. -/
theorem rowSum_apply (v : FVec Ideal S2000x512 .f32) (p : Fin 2000) (u : Fin 1) :
    shapeCast S2000x1 (multiReduction .add [1] S2000 v 0x00000000#32 reduces_S2000x512_S2000 (.inl rfl) rfl)
      shapeCasts_S2000_S2000x1 (ix2 p u) = ∑ k : Fin 512, v (ix2 p k) := by
  rw [column_apply]
  refine (Ideal.multiReduction_add_single v 0x00000000#32 reduces_S2000x512_S2000 (.inl rfl) rfl (ix1 p)).trans ?_
  refine Finset.sum_congr rfl fun k _ => ?_
  exact congrArg v (funext fun a => Fin.ext (by match a with | ⟨0, _⟩ => rfl | ⟨1, _⟩ => rfl))

/-! ## The matrix product at an entry -/

theorem lhs_0 (i : S2000x512.Idx) (c : dot_S2000x512_S512x512_S2000x512_1_1_0_0_n_n.contr.Idx) :
    (dot_S2000x512_S512x512_S2000x512_1_1_0_0_n_n.lhsIdx i c 0).val = (i 0).val := by
  unfold DotDims.lhsIdx
  rw [dif_neg (show ¬(0 : Fin S2000x512.rank) ∈ dot_S2000x512_S512x512_S2000x512_1_1_0_0_n_n.lhsBatch by decide),
    dif_pos (show (0 : Fin S2000x512.rank) ∈ dot_S2000x512_S512x512_S2000x512_1_1_0_0_n_n.lhsNonContracting by decide)]
  rfl
theorem lhs_1 (i : S2000x512.Idx) (c : dot_S2000x512_S512x512_S2000x512_1_1_0_0_n_n.contr.Idx) :
    (dot_S2000x512_S512x512_S2000x512_1_1_0_0_n_n.lhsIdx i c 1).val = (c ⟨0, by decide⟩).val :=
  dot_S2000x512_S512x512_S2000x512_1_1_0_0_n_n.lhsIdx_val_of_single rfl i c
theorem rhs_0 (i : S2000x512.Idx) (c : dot_S2000x512_S512x512_S2000x512_1_1_0_0_n_n.contr.Idx) :
    (dot_S2000x512_S512x512_S2000x512_1_1_0_0_n_n.rhsIdx i c 0).val = (i 1).val := by
  unfold DotDims.rhsIdx
  rw [dif_neg (show ¬(0 : Fin S512x512.rank) ∈ dot_S2000x512_S512x512_S2000x512_1_1_0_0_n_n.rhsBatch by decide),
    dif_pos (show (0 : Fin S512x512.rank) ∈ dot_S2000x512_S512x512_S2000x512_1_1_0_0_n_n.rhsNonContracting by decide)]
  rfl
theorem rhs_1 (i : S2000x512.Idx) (c : dot_S2000x512_S512x512_S2000x512_1_1_0_0_n_n.contr.Idx) :
    (dot_S2000x512_S512x512_S2000x512_1_1_0_0_n_n.rhsIdx i c 1).val = (c ⟨0, by decide⟩).val :=
  dot_S2000x512_S512x512_S2000x512_1_1_0_0_n_n.rhsIdx_val_of_single rfl i c

/-- The product into a zero accumulator, contracting both operands' column axes: entry `(p, q)` is `∑ k, l[p, k] · r[q, k]`. -/
theorem product_apply (l : FVec Ideal S2000x512 .bf16) (r : FVec Ideal S512x512 .bf16) (p : Fin 2000) (q : Fin 512) :
    matmul dot_S2000x512_S512x512_S2000x512_1_1_0_0_n_n none l r (constant S2000x512 .f32 0x00000000#32) (ix2 p q)
      = ∑ k : Fin 512, l (ix2 p k) * r (ix2 q k) := by
  simp only [matmul]
  rw [Ideal.matmul_constant_zero_apply,
    ← Equiv.sum_comp (ValueIdx.contrEquiv1 dot_S2000x512_S512x512_S2000x512_1_1_0_0_n_n 512 rfl rfl).symm]
  refine Finset.sum_congr rfl fun k _ => ?_
  have hk := ValueIdx.contrEquiv1_symm_val dot_S2000x512_S512x512_S2000x512_1_1_0_0_n_n 512 rfl rfl k
  have el : dot_S2000x512_S512x512_S2000x512_1_1_0_0_n_n.lhsIdx (ix2 p q)
      ((ValueIdx.contrEquiv1 dot_S2000x512_S512x512_S2000x512_1_1_0_0_n_n 512 rfl rfl).symm k) = ix2 p k :=
    funext fun a => Fin.ext (by
      match a with
      | ⟨0, _⟩ => exact lhs_0 _ _
      | ⟨1, _⟩ => exact (lhs_1 _ _).trans hk)
  have er : dot_S2000x512_S512x512_S2000x512_1_1_0_0_n_n.rhsIdx (ix2 p q)
      ((ValueIdx.contrEquiv1 dot_S2000x512_S512x512_S2000x512_1_1_0_0_n_n 512 rfl rfl).symm k) = ix2 q k :=
    funext fun a => Fin.ext (by
      match a with
      | ⟨0, _⟩ => exact rhs_0 _ _
      | ⟨1, _⟩ => exact (rhs_1 _ _).trans hk)
  rw [el, er]

/-! ## The normalized block -/

/-- The reciprocal square root acts entry by entry. -/
theorem rsqrt_apply {s : Shape} (a : FVec Ideal s .f32) (i : s.Idx) : rsqrt a i = Ideal.rsqrt (a i) := rfl

/-- The column of row means. -/
def meanCol (x0 : FVec Ideal S2000x512 .f32) : FVec Ideal S2000x1 .f32 :=
  divf (shapeCast S2000x1 (multiReduction .add [1] S2000 x0 0x00000000#32 reduces_S2000x512_S2000 (.inl rfl) rfl) shapeCasts_S2000_S2000x1)
    (broadcast S2000x1 (Scalar.ofBits .f32 0x44000000#32))

/-- The column of reciprocal standard deviations, the variance taken as the second moment less the squared mean. -/
def rstdCol (x0 : FVec Ideal S2000x512 .f32) : FVec Ideal S2000x1 .f32 :=
  rsqrt (addf (subf
    (divf (shapeCast S2000x1 (multiReduction .add [1] S2000 (mulf x0 x0) 0x00000000#32 reduces_S2000x512_S2000 (.inl rfl) rfl) shapeCasts_S2000_S2000x1)
      (broadcast S2000x1 (Scalar.ofBits .f32 0x44000000#32)))
    (mulf (meanCol x0) (meanCol x0))) (broadcast S2000x1 (Scalar.ofBits .f32 0x3727C5AC#32)))

/-- The normalized block as the body forms it. -/
def normBlock (x0 : FVec Ideal S2000x512 .f32) : FVec Ideal S2000x512 .f32 :=
  subf (mulf x0 (broadcastTo S2000x512 (rstdCol x0) broadcasts_S2000x1_S2000x512))
    (broadcastTo S2000x512 (mulf (meanCol x0) (rstdCol x0)) broadcasts_S2000x1_S2000x512)

theorem meanCol_apply (x0 : FVec Ideal S2000x512 .f32) (p : Fin 2000) (u : Fin 1) :
    meanCol x0 (ix2 p u) = RowNorm.mean cN (fun k => x0 (ix2 p k)) := by
  unfold meanCol
  rw [divf_apply, rowSum_apply]
  rfl

theorem rstdCol_apply (x0 : FVec Ideal S2000x512 .f32) (p : Fin 2000) (u : Fin 1) :
    rstdCol x0 (ix2 p u)
      = Ideal.rsqrt (Ideal.div (∑ k : Fin 512, x0 (ix2 p k) * x0 (ix2 p k)) cN
          - RowNorm.mean cN (fun k => x0 (ix2 p k)) * RowNorm.mean cN (fun k => x0 (ix2 p k)) + cE) := by
  unfold rstdCol
  rw [rsqrt_apply, addf_apply, subf_apply, divf_apply, rowSum_apply, mulf_apply, meanCol_apply]
  rfl

/-- Entry `(p, k)` of the normalized block is the moments rule on row `p` of the block, at `k`. -/
theorem normBlock_apply (x0 : FVec Ideal S2000x512 .f32) (p : Fin 2000) (k : Fin 512) :
    normBlock x0 (ix2 p k) = normK (fun j => x0 (ix2 p j)) k := by
  unfold normBlock
  rw [subf_apply, mulf_apply, spread_apply, spread_apply, mulf_apply, rstdCol_apply, meanCol_apply]
  rfl

/-! ## The payload -/

/-- The body's stored value is these pieces composed. -/
theorem pay_eq (x0 : FVec Ideal S2000x512 .f32) (w : FVec Ideal S512x512 .bf16) (b2 : FVec Ideal S1x512 .f32) :
    k0_pay1 (F := Ideal) x0 w b2
      = maximumf (addf
          (matmul dot_S2000x512_S512x512_S2000x512_1_1_0_0_n_n none (truncf .bf16 (normBlock x0) bitsLt_bf16_f32)
            (shapeCast S512x512 w shapeCasts_S512x512_S512x512) (constant S2000x512 .f32 0x00000000#32))
          (broadcastTo S2000x512 (shapeCast S1x512 b2 shapeCasts_S1x512_S1x512) broadcasts_S1x512_S2000x512))
        (broadcast S2000x512 (Scalar.ofBits .f32 0x00000000#32)) := rfl

/-- THE PAYLOAD AT AN ENTRY: `max (∑ k, normK (row p of the block) k · w[q, k] + b2[0, q]) 0`. -/
theorem pay_apply (x0 : FVec Ideal S2000x512 .f32) (w : FVec Ideal S512x512 .bf16) (b2 : FVec Ideal S1x512 .f32)
    (p : Fin 2000) (q : Fin 512) :
    k0_pay1 (F := Ideal) x0 w b2 (ix2 p q)
      = max ((∑ k : Fin 512, normK (fun j => x0 (ix2 p j)) k * w (ix2 q k)) + b2 (ix2 (0 : Fin 1) q)) 0 := by
  rw [pay_eq, maximumf_apply, addf_apply, product_apply, shapeCast_self, shapeCast_self, broadcastTo_1b_ab_apply,
    broadcast_apply]
  show max _ (Ideal.ofBits .f32 0x00000000#32) = _
  rw [Consts.ofBits_zero]
  congr 2
  refine Finset.sum_congr rfl fun k _ => ?_
  rw [truncf_apply, normBlock_apply]

end Cert.KernelValue

end
-- ==== Proof.Blocks.lean ====
/-
  From the blocks the kernel writes to the whole output array.

  The grid has 100 points. At point `t` the kernel is given rows `2000 t … 2000 t + 1999` of `x` (all 512 columns), the whole
  of `W` narrowed to 16 bits on the host (the same numbers on the extended reals), and the bias reshaped to one row
  `[1, 512]`; it writes back rows `2000 t … 2000 t + 1999` of the output. So entry `(p, q)` of what point `t` writes depends on
  row `2000 t + p` of `x`, row `q` of `W` and entry `q` of `b` — exactly entry `(2000 t + p, q)` of the specification under the
  moments rule. The 100 row blocks tile the 200000 rows (row `r` lies in block `r / 2000`), so the output array after the run
  IS the specification.
-/
import proofs.«146175_j5214090297536_2_alg».proof.Proof.Gen.KernelIdeal.Value
import proofs.«146175_j5214090297536_2_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelValue

open Cert.KernelIdeal Cert.KernelIdeal.Gen Cert.KernelIdeal.Value Cert.Spec

variable (m : (ℓ : Loc nD τ sig) → Buf (Elt Ideal) ℓ) (ρ : Dev nD → PrngReg)

/-! ## The arrays the host prepares before the region -/

/-- `W` narrowed to 16 bits is `W`: a change of float format is the identity on the extended reals. -/
theorem V_narrowed (c : Dev nD) :
    (V m c main_v1 : S512x512.Idx → EReal) = (m ((c : Thread nD τ).loc main_arg1) : S512x512.Idx → EReal) := by
  dsimp only [Gen.V, Gen.hostOps0]
  after_results
  rfl

/-- The bias as one row. -/
theorem V_biasRow (c : Dev nD) :
    (V m c main_v0 : S1x512.Idx → EReal)
      = shapeCast S1x512 (m ((c : Thread nD τ).loc main_arg2) : S512.Idx → EReal) Facts₀.shapeCasts_S512_S1x512 := by
  dsimp only [Gen.V, Gen.hostOps0]
  after_results
  rfl

/-! ## Where each window's block sits at point `t` -/

/-- The index maps over the grid: the `x` window and the output window are at row block `t`, column block `0`; the `W` and
    bias windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 100 := lt_of_lt_of_eq t.isLt N_0

/-- The row of the arrays that row `p` of point `t`'s block is. -/
def rowOf (t : Fin cfg0.N) (p : Fin 2000) : Fin 200000 := ⟨2000 * t.val + p.val, by have := t_lt t; omega⟩

/-- Entry `(p, k)` of the `x` block at point `t` is `x[2000 t + p, k]`. -/
theorem xblk_apply (c : Dev nD) (t : Fin cfg0.N) (p : Fin 2000) (k : Fin 512) :
    (iblk m c 0 t : FVec Ideal S2000x512 .f32) (ix2 p k)
      = (m ((c : Thread nD τ).loc main_arg0) : S200000x512.Idx → EReal) (ix2 (rowOf t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 512 + 1 * k.val = k.val; rw [e1]; omega

/-- Entry `(q, k)` of the `W` block at any point is `W[q, k]`. -/
theorem wblk_apply (c : Dev nD) (t : Fin cfg0.N) (q k : Fin 512) :
    (iblk m c 1 t : FVec Ideal S512x512 .bf16) (ix2 q k)
      = (m ((c : Thread nD τ).loc main_arg1) : S512x512.Idx → EReal) (ix2 q k) := by
  obtain ⟨-, -, e0, e1, -⟩ := idx_facts t
  unfold iblk
  rw [View.read_apply]
  show V m c main_v1 _ = _
  rw [V_narrowed]
  refine congrArg _ (funext fun a => Fin.ext ?_)
  match a with
  | ⟨0, _⟩ => show win0_1.index t (0 : Fin 2) * 512 + 1 * q.val = q.val; rw [e0]; omega
  | ⟨1, _⟩ => show win0_1.index t (1 : Fin 2) * 512 + 1 * k.val = k.val; rw [e1]; omega

/-- Entry `(0, q)` of the bias block at any point is `b[q]`. -/
theorem bblk_apply (c : Dev nD) (t : Fin cfg0.N) (q : Fin 512) :
    (iblk m c 2 t : FVec Ideal S1x512 .f32) (ix2 (0 : Fin 1) q)
      = (m ((c : Thread nD τ).loc main_arg2) : S512.Idx → EReal) (ix1 q) := by
  obtain ⟨-, -, -, -, e0, e1, -⟩ := idx_facts t
  unfold iblk
  rw [View.read_apply]
  show V m c main_v0 _ = _
  rw [V_biasRow]
  refine (congrArg _ (funext fun a => Fin.ext ?_)).trans (shapeCast_a_1a_apply _ _ (0 : Fin 1) q)
  match a with
  | ⟨0, _⟩ => show win0_2.index t (0 : Fin 2) * 1 + 1 * 0 = 0; rw [e0]
  | ⟨1, _⟩ => show win0_2.index t (1 : Fin 2) * 512 + 1 * q.val = q.val; rw [e1]; omega

/-! ## What point `t` writes back -/

theorem hz : (![0, 0] : Fin 2 → Nat) = fun _ => 0 := funext fun a => by fin_cases a <;> rfl

/-- The specification under the moments rule, of the argument arrays as launched. -/
abbrev out (c : Dev nD) : S200000x512.Idx → EReal :=
  G normK (m ((c : Thread nD τ).loc main_arg0)) (m ((c : Thread nD τ).loc main_arg1)) (m ((c : Thread nD τ).loc main_arg2))

/-- WHAT POINT `t` WRITES BACK is block `t` of the specification. -/
theorem flushed_eq (c : Dev nD) (t : Fin cfg0.N) :
    (dats m 0 c).flushed 3 t = ((cfg0.win 3).blk t).view.read (Elt Ideal) (out m c) := by
  obtain ⟨-, -, -, -, -, -, e0, e1⟩ := idx_facts t
  rw [Value.flushed3]
  unfold out0_3
  rw [View.canon_unit_zero hz]
  simp only [View.ld_unit_zero (S := S2000x512) hz, View.ld_unit_zero (S := S512x512) hz, View.ld_unit_zero (S := S1x512) hz]
  funext j
  obtain ⟨p, q, rfl⟩ : ∃ (p : Fin 2000) (q : Fin 512), j = ix2 p q := ⟨j 0, j 1, eq_ix2 j⟩
  have hemb : ((cfg0.win 3).blk t).view.emb (ix2 p q) = (ix2 (rowOf t p) q : S200000x512.Idx) := by
    funext a
    apply Fin.ext
    match a with
    | ⟨0, _⟩ => show win0_3.index t (0 : Fin 2) * 2000 + 1 * p.val = 2000 * t.val + p.val; rw [e0]; omega
    | ⟨1, _⟩ => show win0_3.index t (1 : Fin 2) * 512 + 1 * q.val = q.val; rw [e1]; omega
  rw [View.read_apply, hemb]
  refine (pay_apply (iblk m c 0 t) (iblk m c 1 t) (iblk m c 2 t) p q).trans ?_
  show _ = max ((∑ k : Fin 512, normK (row (m ((c : Thread nD τ).loc main_arg0)) (rowOf t p)) k
      * (m ((c : Thread nD τ).loc main_arg1) : S512x512.Idx → EReal) (ix2 q k))
    + (m ((c : Thread nD τ).loc main_arg2) : S512.Idx → EReal) (ix1 q)) 0
  have hrow : (fun j => (iblk m c 0 t : FVec Ideal S2000x512 .f32) (ix2 p j)) = row (m ((c : Thread nD τ).loc main_arg0)) (rowOf t p) :=
    funext fun j => xblk_apply m c t p j
  rw [hrow, bblk_apply]
  congr 2
  exact Finset.sum_congr rfl fun k _ => by rw [wblk_apply]

/-! ## The cover, and the run -/

/-- An index of the output array is in point `t`'s block iff its coordinates are in the block's ranges. -/
theorem mem_blk (t : Fin cfg0.N) (i : S200000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v2).slice (win0_3.rect t)).set ↔ _
  rw [View.set_slice_whole, Rect.mem_set_unit]
  exact Iff.rfl

/-- Every index of the output array lies in the block of the point `(row) / 2000`. -/
theorem covered (i : S200000x512.Idx) : ∃ t : Fin cfg0.N, (cfg0.win 3).flush t = true ∧ i ∈ ((cfg0.win 3).blk t).view.set := by
  have hi0 : (i 0).val < 200000 := (i 0).isLt
  have hi1 : (i 1).val < 512 := (i 1).isLt
  let t : Fin cfg0.N := ⟨(i 0).val / 2000, by rw [show cfg0.N = 100 from N_0]; omega⟩
  obtain ⟨-, -, -, -, -, -, e0, e1⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 512 ≤ (i 1).val ∧ (i 1).val < win0_3.index t (1 : Fin 2) * 512 + 512; rw [e1]; omega

/-- THE OUTPUT ARRAY after the run is the specification under the moments rule. -/
theorem final (c : Dev nD) : (dats m 0 c).arrAt 3 cfg0.N = out m c :=
  (dats m 0 c).arrAt_eq_of_cover 3 (out m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelValue

end
-- ==== Proof.RefIsSpec.lean ====
/-
  The reference, read one stage at a time, is the specification under the CENTRED row rule.

  The reference forms each row's mean `μ` (a sum over the 512 columns, over `512`), subtracts it, squares, sums and divides
  again for the variance, adds the offset, takes the reciprocal square root `s`, and multiplies: `(x - μ) · s` — the centred
  form, entry by entry. The product with `W` contracts the column axis of both operands, so output `(r, o)` is
  `∑ k, xn[r, k] · W[o, k]`; the bias is broadcast along rows; `relu` is the maximum with `0`.
  Every stage that keeps a unit axis (`[200000, 1]`) depends only on the row coordinate of its index.
-/
import proofs.«146175_j5214090297536_2_alg».proof.Proof.Gen.ReferenceIdeal.Read
import proofs.«146175_j5214090297536_2_alg».proof.Proof.Spec

noncomputable section

open Idealize.ShloMosaic Idealize.ShloMosaic.ValueIdx
open scoped BigOperators

namespace Cert.RefValue

open Cert.ReferenceIdeal Cert.ReferenceIdeal.Read Cert.Spec

variable (x : S200000x512.Idx → EReal)

/-- The row sum: stage `v0` at row `j` is the sum of that row. -/
theorem v0_at (j : S200000.Idx) : val_main_v0 (F := Ideal) x j = ∑ k : Fin 512, row x (j 0) k := by
  rw [val_main_v0_apply, val_main_cst_apply]
  show Ideal.ofBits .f32 0x00000000#32 + _ = _
  rw [Consts.ofBits_zero, zero_add]
  refine Finset.sum_congr rfl fun k _ => ?_
  exact congrArg x (funext fun a => Fin.ext (by match a with | ⟨0, _⟩ => rfl | ⟨1, _⟩ => rfl))

/-- The mean: stage `v3` at `(r, ·)` is the mean of row `r`. -/
theorem v3_at (j : S200000x1.Idx) : val_main_v3 (F := Ideal) x j = RowNorm.mean cN (row x (j 0)) := by
  rw [val_main_v3_apply, val_main_v1_apply, v0_at, val_main_v2_apply, val_main_cst_0_apply]
  rfl

/-- The centred entry: stages `v5` and `v12` at `(r, k)` are `x[r, k]` less the mean of row `r`. -/
theorem v5_at (i : S200000x512.Idx) : val_main_v5 (F := Ideal) x i = x i - RowNorm.mean cN (row x (i 0)) := by
  rw [val_main_v5_apply, val_main_v4_apply, v3_at]
  rfl
theorem v12_at (i : S200000x512.Idx) : val_main_v12 (F := Ideal) x i = x i - RowNorm.mean cN (row x (i 0)) := by
  rw [val_main_v12_apply, val_main_v11_apply, v3_at]
  rfl

/-- The sum of squared deviations: stage `v7` at row `j`. -/
theorem v7_at (j : S200000.Idx) : val_main_v7 (F := Ideal) x j
    = ∑ k : Fin 512, (row x (j 0) k - RowNorm.mean cN (row x (j 0))) * (row x (j 0) k - RowNorm.mean cN (row x (j 0))) := by
  rw [val_main_v7_apply, val_main_cst_1_apply]
  show Ideal.ofBits .f32 0x00000000#32 + _ = _
  rw [Consts.ofBits_zero, zero_add]
  refine Finset.sum_congr rfl fun k _ => ?_
  rw [val_main_v6_apply, v5_at]
  have e : idx_main_v7 j k = ix2 (j 0) k := funext fun a => Fin.ext (by match a with | ⟨0, _⟩ => rfl | ⟨1, _⟩ => rfl)
  rw [e]
  rfl

/-- The reciprocal standard deviation: stage `v15` at `(r, ·)`. -/
theorem v15_at (j : S200000x1.Idx) : val_main_v15 (F := Ideal) x j
    = Ideal.rsqrt (Ideal.div (∑ k : Fin 512, (row x (j 0) k - RowNorm.mean cN (row x (j 0))) * (row x (j 0) k - RowNorm.mean cN (row x (j 0)))) cN + cE) := by
  rw [val_main_v15_apply, val_main_v14_apply, val_main_v10_apply, val_main_v8_apply, v7_at, val_main_v9_apply,
    val_main_cst_2_apply, val_main_v13_apply, val_main_cst_3_apply]
  rfl

/-- The normalized entry: stage `v17` at `(r, k)` is the centred rule on row `r`, at `k`. -/
theorem v17_at (r : Fin 200000) (k : Fin 512) : val_main_v17 (F := Ideal) x (ix2 r k) = normR (row x r) k := by
  rw [val_main_v17_apply, v12_at, val_main_v16_apply, v15_at]
  rfl

variable (W : S512x512.Idx → EReal) (b : S512.Idx → EReal)

/-- THE REFERENCE IS THE SPECIFICATION under the centred rule. -/
theorem result_eq : val_main_v22 (F := Ideal) x W b = G normR x W b := by
  funext i
  obtain ⟨p, q, rfl⟩ : ∃ (p : Fin 200000) (q : Fin 512), i = ix2 p q := ⟨i 0, i 1, eq_ix2 i⟩
  rw [val_main_v22_apply, val_main_v21_apply, val_main_v18_apply, val_main_v20_apply, val_main_v19_apply,
    val_main_call0_v0_apply, val_main_call0_cst_apply]
  show max ((∑ k : Fin 512, _) + _) (Ideal.ofBits .f32 0x00000000#32)
    = max ((∑ k : Fin 512, normR (row x p) k * W (ix2 q k)) + b (ix1 q)) 0
  rw [Consts.ofBits_zero]
  congr 2
  · refine Finset.sum_congr rfl fun k _ => ?_
    have el : lidx_main_v18 (ix2 p q) k = ix2 p k := funext fun a => Fin.ext (by match a with | ⟨0, _⟩ => rfl | ⟨1, _⟩ => rfl)
    have er : ridx_main_v18 (ix2 p q) k = ix2 q k := funext fun a => Fin.ext (by match a with | ⟨0, _⟩ => rfl | ⟨1, _⟩ => rfl)
    rw [el, er, v17_at]
  · exact congrArg b (funext fun a => Fin.ext (by match a with | ⟨0, _⟩ => rfl))

end Cert.RefValue

end
-- ==== Proof.Finite.lean ====
/-
  The precondition, read back: every entry of `x` is a real number.

  The precondition is the conjunction of three tests "all entries of |·| are below +∞", one per argument; only the test on
  `x` is needed. A conjunction of one-bit words is `1` only if both are; an all-reduction by `and` is `1` only if every entry
  is; and `max a (-a) < +∞` on the extended reals excludes both `a = +∞` and `a = -∞`, leaving a real number.
-/
import proofs.«146175_j5214090297536_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.Finite

open Cert.Pre_finite_inputs

/-- The scalar shape has one index. -/
instance : Subsingleton S_.Idx := ⟨fun a b => funext fun d => d.elim0⟩

/-- The pattern of `+∞` denotes the top of the extended reals. -/
theorem ofBits_inf : Ideal.ofBits .f32 0x7F800000#32 = (⊤ : EReal) := by
  simp [Ideal.ofBits, Ideal.ieee]

/-- An extended real whose absolute value is below `+∞` is a real number. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- Under the precondition every entry of the first argument is a real number. -/
theorem x_real [Facts] (x : FVec Ideal S200000x512 .f32) (w : FVec Ideal S512x512 .f32) (b : FVec Ideal S512 .f32)
    (h : fn (F := Ideal) x w b = fun _ => 1#1) (i : S200000x512.Idx) : ∃ r : ℝ, x i = (r : EReal) := by
  have h0 := congrFun h ValueIdx.ix0
  dsimp only [fn] at h0
  obtain ⟨h8, -⟩ := IntOp.andi_eq_one.1 h0
  obtain ⟨h3, -⟩ := IntOp.andi_eq_one.1 h8
  have hi := Host.reduce_andi_all _ _ _ _ _ h3 i
  have hlt : max (x i) (-(x i)) < Ideal.ofBits .f32 0x7F800000#32 := by
    by_contra hn
    have : Ideal.cmp .olt (max (x i) (-(x i))) (Ideal.ofBits .f32 0x7F800000#32) = 0#1 := by
      simp [Ideal.cmp, hn]
    rw [show cmpf (F := Ideal) .olt (Host.absf x) (broadcastInDim S200000x512 ![] Facts.bcast_S_S200000x512 (constant S_ .f32 0x7F800000#32)) i
        = Ideal.cmp .olt (max (x i) (-(x i))) (Ideal.ofBits .f32 0x7F800000#32) from rfl, this] at hi
    exact absurd hi (by decide)
  rw [ofBits_inf] at hlt
  exact real_of_abs_lt_top _ hlt

end Cert.Finite

end
-- ==== Proof.lean ====
/-
  The certificate of a row-normalizing linear layer: `relu (norm(x) · Wᵀ + b)` over `x : [200000, 512]`, `W : [512, 512]`,
  `b : [512]`, every row of `x` normalized to zero mean and unit variance (up to a small offset under the square root).

  The kernel works on 100 blocks of 2000 rows. It normalizes a row from its first two moments — variance `E[x²] - E[x]²`,
  normalized entry `x · s - mean · s` — and multiplies by `W` narrowed to 16 bits. The reference centres the row first —
  variance `E[(x - mean)²]`, normalized entry `(x - mean) · s` — and multiplies by `W` as given. On the extended reals a change
  of float format is the identity and a sum does not depend on its order or blocking, so the two differ only in the row rule;
  and the two row rules agree on every row of real numbers (Proof/RowNorm.lean), which is what the precondition — every
  input entry finite — provides (Proof/Finite.lean). So both programs end with the one array `Spec.G` (Proof/Spec.lean): the
  kernel by its blocks tiling the output (Proof/Payload.lean, Proof/Blocks.lean), the reference stage by stage
  (Proof/RefIsSpec.lean). The idealized kernel is the kernel's own text (nothing was rewritten), and the three frames are the
  programs' runs with the results forgotten.
-/
import proofs.«146175_j5214090297536_2_alg».proof.Defs
import proofs.«146175_j5214090297536_2_alg».proof.Proof.Gen.Kernel
import proofs.«146175_j5214090297536_2_alg».proof.Proof.Gen.Kernel.Skeleton
import proofs.«146175_j5214090297536_2_alg».proof.Proof.Gen.Kernel.Launch
import proofs.«146175_j5214090297536_2_alg».proof.Proof.Gen.Kernel.Points
import proofs.«146175_j5214090297536_2_alg».proof.Proof.Gen.Kernel.Frame
import proofs.«146175_j5214090297536_2_alg».proof.Proof.Gen.KernelIdeal
import proofs.«146175_j5214090297536_2_alg».proof.Proof.Gen.KernelIdeal.Skeleton
import proofs.«146175_j5214090297536_2_alg».proof.Proof.Gen.KernelIdeal.Launch
import proofs.«146175_j5214090297536_2_alg».proof.Proof.Gen.KernelIdeal.Points
import proofs.«146175_j5214090297536_2_alg».proof.Proof.Gen.KernelIdeal.Frame
import proofs.«146175_j5214090297536_2_alg».proof.Proof.Gen.ReferenceIdeal
import proofs.«146175_j5214090297536_2_alg».proof.Proof.Gen.Pre_finite_inputs
import proofs.«146175_j5214090297536_2_alg».proof.Proof.Gen.KernelIdeal.Value
import proofs.«146175_j5214090297536_2_alg».proof.Proof.Gen.ReferenceIdeal.Run
import proofs.«146175_j5214090297536_2_alg».proof.Proof.Gen.ReferenceIdeal.Read
import proofs.«146175_j5214090297536_2_alg».proof.Proof.Blocks
import proofs.«146175_j5214090297536_2_alg».proof.Proof.RefIsSpec
import proofs.«146175_j5214090297536_2_alg».proof.Proof.Finite
import Idealize.ShloMosaic.Adequacy
import Idealize.ShloMosaic.Init

noncomputable section

namespace Cert.Proof

open Idealize.ShloMosaic Idealize.SL.Sem Cert.Kernel

/-- The kernel as printed runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals. -/
theorem preserves : Cert.preserves_Kernel_KernelIdeal := trivial

/-- On finite inputs the kernel's output array (the specification under the moments rule) is the reference's (the
    specification under the centred rule): the two rules agree on rows of real numbers. -/
theorem algebraic : Cert.algebraic_KernelIdeal_ReferenceIdeal := by
  intro m ρ m' ρ' hpre hagree
  refine ⟨fun c => Cert.KernelValue.out m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v22_eq _ _ _).trans ?_
  rw [Cert.RefValue.result_eq]
  exact (Cert.Spec.G_normK_eq_G_normR _ _ _ fun i => Cert.Finite.x_real _ _ _ (hpre c) i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
